-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S256x128 : Shape := ⟨2, ![256, 128]⟩
abbrev S128 : Shape := ⟨1, ![128]⟩
abbrev S600000 : Shape := ⟨1, ![600000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S50000x128 .f32) (main_arg1 : FVec F S256x128 .f32) (main_arg2 : FVec F S128 .f32) (main_arg3 : IVec S600000 32) (main_arg4 : IVec S600000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S256x128 .f32 := Host.absf main_arg1
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S50000x128 : Shape := ⟨2, ![50000, 128]⟩
abbrev S256x128 : Shape := ⟨2, ![256, 128]⟩
abbrev S128 : Shape := ⟨1, ![128]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S50000 : Shape := ⟨1, ![50000]⟩
abbrev S50000x1 : Shape := ⟨2, ![50000, 1]⟩
abbrev S128x128 : Shape := ⟨2, ![128, 128]⟩
abbrev S2000x128 : Shape := ⟨2, ![2000, 128]⟩
abbrev S1x128 : Shape := ⟨2, ![1, 128]⟩
abbrev S2000 : Shape := ⟨1, ![2000]⟩
abbrev S2000x1 : Shape := ⟨2, ![2000, 1]⟩

abbrev nBuf : Space → Nat
  | .hbm => 33
  | .vmem => 9
  | .smem => 0
  | _ => 0

abbrev bufTy : (tb : Table) → Fin (tcTables nBuf tb) → BufTy
  | .hbm, ⟨0, _⟩ => ⟨S50000x128, .f32⟩
  | .hbm, ⟨1, _⟩ => ⟨S256x128, .f32⟩
  | .hbm, ⟨2, _⟩ => ⟨S128, .f32⟩
  | .hbm, ⟨3, _⟩ => ⟨S600000, .i32⟩
  | .hbm, ⟨4, _⟩ => ⟨S600000, .i32⟩
  | .hbm, ⟨5, _⟩ => ⟨S_, .i32⟩
  | .hbm, ⟨6, _⟩ => ⟨S600000, .i32⟩
  | .hbm, ⟨7, _⟩ => ⟨S600000, .i1⟩
  | .hbm, ⟨8, _⟩ => ⟨S_, .i32⟩
  | .hbm, ⟨9, _⟩ => ⟨S600000, .i32⟩
  | .hbm, ⟨10, _⟩ => ⟨S600000, .i32⟩
  | .hbm, ⟨11, _⟩ => ⟨S600000, .i32⟩
  | .hbm, ⟨12, _⟩ => ⟨S600000x1, .i32⟩
  | .hbm, ⟨13, _⟩ => ⟨S600000x128, .f32⟩
  | .hbm, ⟨14, _⟩ => ⟨S_, .f32⟩
  | .hbm, ⟨15, _⟩ => ⟨S50000x128, .f32⟩
  | .hbm, ⟨16, _⟩ => ⟨S600000x1, .i32⟩
  | .hbm, ⟨17, _⟩ => ⟨S50000x128, .f32⟩
  | .hbm, ⟨18, _⟩ => ⟨S_, .f32⟩
  | .hbm, ⟨19, _⟩ => ⟨S600000, .f32⟩
  | .hbm, ⟨20, _⟩ => ⟨S_, .f32⟩
  | .hbm, ⟨21, _⟩ => ⟨S50000, .f32⟩
  | .hbm, ⟨22, _⟩ => ⟨S600000x1, .i32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000x1, .f32⟩
  | .hbm, ⟨28, _⟩ => ⟨S50000x128, .f32⟩
  | .hbm, ⟨29, _⟩ => ⟨S50000x128, .f32⟩
  | .hbm, ⟨30, _⟩ => ⟨S128x128, .f32⟩
  | .hbm, ⟨31, _⟩ => ⟨S128x128, .f32⟩
  | .hbm, ⟨32, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S128x128, .f32⟩
  | .local _ .vmem, ⟨6, _⟩ => ⟨S128, .f32⟩
  | .local _ .vmem, ⟨7, _⟩ => ⟨S2000x128, .f32⟩
  | .local _ .vmem, ⟨8, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  slices_S256x128_S128x128_0_0 : S256x128.Slices ![0, 0] S128x128
  slices_S256x128_S128x128_128_0 : S256x128.Slices ![128, 0] S128x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  reduces_S2000x128_S2000 : S2000x128.Reduces [1] S2000
  shapeCasts_S2000_S2000x1 : S2000.ShapeCasts S2000x1
  broadcasts_S2000x1_S2000x128 : S2000x1.Broadcasts S2000x128
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S50000x128.size a
  hwx0_5 : ∀ i : grid0.Coords, EltTy.bits .f32 = 32 ∨ (Rect.block (s := S50000x128) S2000x128.size (cc0_transform_5 i) (hinb0_5 i)).WholeWords (EltTy.packing .f32)

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S50000x128 : Shape := ⟨2, ![50000, 128]⟩
abbrev S256x128 : Shape := ⟨2, ![256, 128]⟩
abbrev S128 : Shape := ⟨1, ![128]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S50000 : Shape := ⟨1, ![50000]⟩
abbrev S50000x1 : Shape := ⟨2, ![50000, 1]⟩
abbrev S50000x256 : Shape := ⟨2, ![50000, 256]⟩
abbrev S1x128 : Shape := ⟨2, ![1, 128]⟩

abbrev nBuf : Space → Nat
  | .hbm => 48
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S256x128, .f32⟩
  | .hbm, ⟨2, _⟩ => ⟨S128, .f32⟩
  | .hbm, ⟨3, _⟩ => ⟨S600000, .i32⟩
  | .hbm, ⟨4, _⟩ => ⟨S600000, .i32⟩
  | .hbm, ⟨5, _⟩ => ⟨S_, .i32⟩
  | .hbm, ⟨6, _⟩ => ⟨S600000, .i32⟩
  | .hbm, ⟨7, _⟩ => ⟨S600000, .i1⟩
  | .hbm, ⟨8, _⟩ => ⟨S_, .i32⟩
  | .hbm, ⟨9, _⟩ => ⟨S600000, .i32⟩
  | .hbm, ⟨10, _⟩ => ⟨S600000, .i32⟩
  | .hbm, ⟨11, _⟩ => ⟨S600000, .i32⟩
  | .hbm, ⟨12, _⟩ => ⟨S600000x1, .i32⟩
  | .hbm, ⟨13, _⟩ => ⟨S600000x128, .f32⟩
  | .hbm, ⟨14, _⟩ => ⟨S_, .f32⟩
  | .hbm, ⟨15, _⟩ => ⟨S50000x128, .f32⟩
  | .hbm, ⟨16, _⟩ => ⟨S600000x1, .i32⟩
  | .hbm, ⟨17, _⟩ => ⟨S50000x128, .f32⟩
  | .hbm, ⟨18, _⟩ => ⟨S_, .f32⟩
  | .hbm, ⟨19, _⟩ => ⟨S600000, .f32⟩
  | .hbm, ⟨20, _⟩ => ⟨S_, .f32⟩
  | .hbm, ⟨21, _⟩ => ⟨S50000, .f32⟩
  | .hbm, ⟨22, _⟩ => ⟨S600000x1, .i32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000x1, .f32⟩
  | .hbm, ⟨28, _⟩ => ⟨S50000x128, .f32⟩
  | .hbm, ⟨29, _⟩ => ⟨S50000x128, .f32⟩
  | .hbm, ⟨30, _⟩ => ⟨S50000x256, .f32⟩
  | .hbm, ⟨31, _⟩ => ⟨S50000x128, .f32⟩
  | .hbm, ⟨32, _⟩ => ⟨S1x128, .f32⟩
  | .hbm, ⟨33, _⟩ => ⟨S50000x128, .f32⟩
  | .hbm, ⟨34, _⟩ => ⟨S50000x128, .f32⟩
  | .hbm, ⟨35, _⟩ => ⟨S50000x128, .f32⟩
  | .hbm, ⟨36, _⟩ => ⟨S_, .f32⟩
  | .hbm, ⟨37, _⟩ => ⟨S50000, .f32⟩
  | .hbm, ⟨38, _⟩ => ⟨S50000x1, .f32⟩
  | .hbm, ⟨39, _⟩ => ⟨S50000x1, .f32⟩
  | .hbm, ⟨40, _⟩ => ⟨S_, .f32⟩
  | .hbm, ⟨41, _⟩ => ⟨S50000x1, .f32⟩
  | .hbm, ⟨42, _⟩ => ⟨S50000x1, .f32⟩
  | .hbm, ⟨43, _⟩ => ⟨S50000x128, .f32⟩
  | .hbm, ⟨44, _⟩ => ⟨S50000x128, .f32⟩
  | .hbm, ⟨45, _⟩ => ⟨S_, .f32⟩
  | .hbm, ⟨46, _⟩ => ⟨S50000x128, .f32⟩
  | .hbm, ⟨47, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_call0_v0 : Ref sig .tc := ⟨.hbm, 35, rfl⟩
abbrev main_call0_cst : Ref sig .tc := ⟨.hbm, 36, rfl⟩
abbrev main_call0_v1 : Ref sig .tc := ⟨.hbm, 37, rfl⟩
abbrev main_call0_v2 : Ref sig .tc := ⟨.hbm, 38, rfl⟩
abbrev main_v24 : Ref sig .tc := ⟨.hbm, 39, rfl⟩
abbrev main_cst_4 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_call1_cst : Ref sig .tc := ⟨.hbm, 45, rfl⟩
abbrev main_call1_v0 : Ref sig .tc := ⟨.hbm, 46, rfl⟩
abbrev main_v29 : Ref sig .tc := ⟨.hbm, 47, rfl⟩

abbrev nD : Nat := 1
abbrev τ : Topo := Topo.v7x

variable {F : FTy → Type} [FloatOps F]

class Facts₀ : Prop where
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  concatenates_S50000x128_S50000x128_S50000x256_d1 : Shape.Concatenates [S50000x128, S50000x128] S50000x256 1
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S50000_d1 : S50000x128.ReducesTo [1] S50000
  h_S_ : 0 < S_.numel
  bcast_S_S50000x1 : S_.BroadcastsInDim S50000x1 (![] : Fin 0 → Fin S50000x1.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1
  dot_S50000x256_S256x128_S50000x128_1_0_0_1_n_n_wf : DotDims.WF S50000x256 S256x128 S50000x128 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.Spec.lean ====
/-
  The layer as one function of its arrays, entry by entry, on the extended reals.

  A node's output row depends on the node's own feature row hr, its neighbourhood mean row cr, the two halves
  Wh, Wc of the weights and the bias b only:
    lin q   = Σ_{k<128} hr k · Wh (k, q)  +  Σ_{k<128} cr k · Wc (k, q)  +  b q
    out q   = max (lin q / max (√(Σ_{q'<128} lin q' ²), ε), 0)
  where ε is the float word 0x2B8CBCCC read as an extended real and the quotient and the root are the ideal
  instance's. The whole output array applies this row by row, with Wh the rows 0..127 and Wc the rows 128..255 of
  the weights [256, 128].

  The same linear map written over the concatenated row (hr, cr) of length 256 is one sum over k < 256; the two
  agree because a sum over 128 + 128 indices is the sum over the first 128 plus the sum over the last 128, which
  uses only that addition is commutative and associative, so it holds with infinite entries too.
-/
import Idealize.ShloMosaic.PureOps.Ideal
import Idealize.ShloMosaic.PureOps.Ideal.Laws
import Idealize.ShloMosaic.Lib.ValueIdx

noncomputable section

namespace Cert.Sage

open Idealize.ShloMosaic Idealize.ShloMosaic.ValueIdx

/-- Row k of the upper half of the weights. -/
def lo (k : Fin 128) : Fin 256 := ⟨k.val, by omega⟩
/-- Row 128 + k: row k of the lower half of the weights. -/
def hi (k : Fin 128) : Fin 256 := ⟨128 + k.val, by omega⟩

/-- The linear layer of one node at output feature q. -/
def rowLin (hr cr : Fin 128 → EReal) (Wh Wc : Fin 128 → Fin 128 → EReal) (b : Fin 128 → EReal) (q : Fin 128) : EReal :=
  (∑ k : Fin 128, hr k * Wh k q) + (∑ k : Fin 128, cr k * Wc k q) + b q

/-- One node's output row: the linear layer divided by its length (at least ε), negative entries cut to zero. -/
def rowOut (hr cr : Fin 128 → EReal) (Wh Wc : Fin 128 → Fin 128 → EReal) (b : Fin 128 → EReal) (q : Fin 128) : EReal :=
  max (Ideal.div (rowLin hr cr Wh Wc b q)
        (max (Ideal.sqrt (∑ q' : Fin 128, rowLin hr cr Wh Wc b q' * rowLin hr cr Wh Wc b q'))
          (Ideal.ofBits .f32 0x2B8CBCCC#32)))
      (Ideal.ofBits .f32 0x00000000#32)

abbrev Nodes := (⟨2, ![50000, 128]⟩ : Shape).Idx → EReal
abbrev Weights := (⟨2, ![256, 128]⟩ : Shape).Idx → EReal
abbrev Bias := (⟨1, ![128]⟩ : Shape).Idx → EReal

/-- The layer's output array from the features h, the neighbourhood means c, the weights W and the bias b. -/
def out (h c : Nodes) (W : Weights) (b : Bias) : Nodes := fun i =>
  rowOut (fun k => h (ix2 (i 0) k)) (fun k => c (ix2 (i 0) k)) (fun k q => W (ix2 (lo k) q)) (fun k q => W (ix2 (hi k) q))
    (fun q => b (ix1 q)) (i 1)

/-- The concatenated row (hr, cr) at position k < 256. -/
def cat (hr cr : Fin 128 → EReal) (k : Fin 256) : EReal :=
  if hk : k.val < 128 then hr ⟨k.val, hk⟩ else cr ⟨k.val - 128, by omega⟩

theorem cat_lo (hr cr : Fin 128 → EReal) (k : Fin 128) : cat hr cr (lo k) = hr k := by
  unfold cat lo
  rw [dif_pos k.isLt]

theorem cat_hi (hr cr : Fin 128 → EReal) (k : Fin 128) : cat hr cr (hi k) = cr k := by
  unfold cat hi
  rw [dif_neg (by simp)]
  exact congrArg cr (Fin.ext (by simp))

/-- One sum over the concatenated row of length 256 is the sum over its first half plus the sum over its second. -/
theorem sum_cat (hr cr : Fin 128 → EReal) (w : Fin 256 → EReal) :
    (∑ k : Fin 256, cat hr cr k * w k) = (∑ k : Fin 128, hr k * w (lo k)) + (∑ k : Fin 128, cr k * w (hi k)) := by
  have e := Fin.sum_univ_add (M := EReal) (a := 128) (b := 128) (fun k : Fin (128 + 128) => cat hr cr k * w k)
  refine e.trans ?_
  refine congrArg₂ (· + ·) (Finset.sum_congr rfl fun k _ => ?_) (Finset.sum_congr rfl fun k _ => ?_)
  · exact congrArg₂ (· * ·) (cat_lo hr cr k) rfl
  · exact congrArg₂ (· * ·) (cat_hi hr cr k) rfl

end Cert.Sage

end
-- ==== Proof.LibMatmul.lean ====
/-
  A rank-2 matrix product read at an index, at the exact extended reals: when the dimension numbers contract the
  left operand's column axis with the right operand's row axis and keep the other two axes in order, the product
  accumulated into zeros is, at row `p` and column `q`, the sum over `k` of `lhs (p, k) · rhs (k, q)` — a sum over
  the contracted extent itself, not over the contraction's own index type.
-/
import Idealize.ShloMosaic.PureOps.Ideal.Laws
import Idealize.ShloMosaic.Lib.ValueIdx

noncomputable section

namespace Cert.LibMatmul

open Idealize.ShloMosaic Idealize.ShloMosaic.ValueIdx

/-- A product `[a, K] × [K, b] → [a, b]` into a zero accumulator, at an output index `j`: the four coordinate facts
    say which operand entries the dimension numbers pair at the contraction index (the left one at `(j 0, k)`, the
    right one at `(k, j 1)`); the contraction has one axis, of extent `K`, and the sum is re-indexed along it. -/
theorem matmul_zero_ix2 {a K b : Nat} {φ₁ φ₂ : FTy}
    (d : DotDims ⟨2, ![a, K]⟩ ⟨2, ![K, b]⟩ ⟨2, ![a, b]⟩) (prec : Option ContractPrecision)
    (hr : d.contr.rank = 1) (hs : d.contr.size ⟨0, by omega⟩ = K)
    (hl0 : ∀ j q, (d.lhsIdx j q 0).val = (j 0).val)
    (hl1 : ∀ j q, (d.lhsIdx j q 1).val = (q ⟨0, by omega⟩).val)
    (hr0 : ∀ j q, (d.rhsIdx j q 0).val = (q ⟨0, by omega⟩).val)
    (hr1 : ∀ j q, (d.rhsIdx j q 1).val = (j 1).val)
    (lhs : FVec Ideal ⟨2, ![a, K]⟩ φ₁) (rhs : FVec Ideal ⟨2, ![K, b]⟩ φ₂) (j : (⟨2, ![a, b]⟩ : Shape).Idx) :
    FloatOps.matmul d prec lhs rhs (constant ⟨2, ![a, b]⟩ .f32 0x00000000#32) j
      = ∑ k : Fin K, lhs (ix2 (j 0) k) * rhs (ix2 k (j 1)) := by
  rw [Ideal.matmul_constant_zero_apply, ← Equiv.sum_comp (contrEquiv1 d K hr hs).symm]
  refine Finset.sum_congr rfl fun k _ => ?_
  have hk := contrEquiv1_symm_val d K hr hs k
  have el : d.lhsIdx j ((contrEquiv1 d K hr hs).symm k) = ix2 (j 0) k := funext fun x => Fin.ext (by
    match x with
    | ⟨0, _⟩ => exact hl0 _ _
    | ⟨1, _⟩ => exact (hl1 _ _).trans hk)
  have er : d.rhsIdx j ((contrEquiv1 d K hr hs).symm k) = ix2 k (j 1) := funext fun x => Fin.ext (by
    match x with
    | ⟨0, _⟩ => exact (hr0 _ _).trans hk
    | ⟨1, _⟩ => exact hr1 _ _)
  rw [el, er]
  rfl

end Cert.LibMatmul

end
-- ==== Proof.LibRowSum.lean ====
/-
  A sum along the last axis of a matrix, read at a row.

  For x of shape [a, b], the kernel's lane reduction with neutral accumulator and the host's reduce with initial value
  init, both along axis 1, read at row p are the finite sum over k : Fin b of x (p, k) (the host's with init added in
  front): the source index over row p with coordinate k on the dropped axis is (p, k).
-/
import Idealize.ShloMosaic.PureOps.Ideal.Laws
import Idealize.ShloMosaic.Lib.ValueIdx

noncomputable section

namespace Cert.LibRowSum

open Idealize.ShloMosaic Idealize.ShloMosaic.ValueIdx

/-- Over row p of an [a, b] matrix, the source index with coordinate k on axis 1 is (p, k). -/
theorem lift_row {a b : ℕ} (h : (⟨2, ![a, b]⟩ : Shape).Reduces [1] ⟨1, ![a]⟩) (p : Fin a) (k : Fin b) :
    h.lift (ix1 p) k = ix2 p k := by
  funext c
  match c with
  | ⟨0, _⟩ => exact Fin.ext rfl
  | ⟨1, _⟩ => exact Fin.ext rfl

/-- The kernel's lane sum of an [a, b] matrix at row p is the sum of the row's entries. -/
theorem multiReduction_add_row {φ : FTy} {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (lift_row h p k))

/-- The host's sum of an [a, b] matrix along axis 1 at row p is the initial value plus the sum of the row's entries. -/
theorem hostReduceAdd_row {a b : ℕ} (h' : (⟨2, ![a, b]⟩ : Shape).ReducesTo [1] ⟨1, ![a]⟩)
    (h : (⟨2, ![a, b]⟩ : Shape).Reduces [1] ⟨1, ![a]⟩) (x : (⟨2, ![a, b]⟩ : Shape).Idx → EReal) (init : EReal) (p : Fin a) :
    Ideal.hostReduceAdd h' x init (ix1 p) = init + ∑ k : Fin b, x (ix2 p k) :=
  (Ideal.hostReduceAdd_single h' h x init (ix1 p)).trans
    (congrArg (init + ·) (Finset.sum_congr rfl fun k _ => congrArg x (lift_row h p k)))

end Cert.LibRowSum

end
-- ==== Proof.LibColumn.lean ====
/-
  A column kept by a reduction ("keepdims"): the two layout steps that turn a vector of row results into
  a matrix with one value per row, each read at an index written by coordinates.
-/
import Idealize.ShloMosaic.Lib.Pipeline.Value
import Idealize.ShloMosaic.Lib.ValueIdx

namespace Idealize.ShloMosaic.ValueIdx

variable {α : Type}

/-- An `[a]` vector cast to the column `[a, 1]` reads, at `(i, u)`, the operand at `i`, whatever the
    unit coordinate `u`: both indices have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, b, 1]` array cast to `[a, b]` (the kept unit axis dropped) reads, at `(i, j)`, the operand at
    `(i, j, 0)`: both indices have row-major position `i·b + j`. -/
theorem shapeCast_ab1_ab_apply {a b : ℕ} (x : (⟨3, ![a, b, 1]⟩ : Shape).Idx → α)
    (h : (⟨3, ![a, b, 1]⟩ : Shape).ShapeCasts ⟨2, ![a, b]⟩) (i : Fin a) (j : Fin b) :
    shapeCast ⟨2, ![a, b]⟩ x h (ix2 i j) = x (ix3 i j (0 : Fin 1)) :=
  shapeCast_apply x h _ _ (by
    rw [Shape.rowMajor_val_three, Shape.rowMajor_val_two]
    show (i.val * b + j.val) * 1 + 0 = i.val * b + j.val
    rw [Nat.mul_one, Nat.add_zero])

end Idealize.ShloMosaic.ValueIdx
-- ==== Proof.Payload.lean ====
/-
  What the kernel body stores, entry by entry.

  The body loads a block of 2000 feature rows x0, the block of their neighbourhood means x1, the two weight halves
  x2, x3 [128, 128] and the bias x4 [128], and stores one [2000, 128] value. At row r and column q that value is
  the node's output row (Spec: rowOut) of row r of x0 and x1: the two matrix products into zero accumulators are
  plain sums over k < 128 (the change to the narrower float format is the identity on the extended reals), the bias
  is laid out as one row and repeated down the rows, the lane sum of squares at row r is the sum over the row, kept
  as a column and repeated across the columns.
-/
import proofs.«107381_j70265664963122_1_alg».proof.Proof.Gen.KernelIdeal.Skeleton
import proofs.«107381_j70265664963122_1_alg».proof.Proof.Spec
import proofs.«107381_j70265664963122_1_alg».proof.Proof.LibMatmul
import proofs.«107381_j70265664963122_1_alg».proof.Proof.LibRowSum
import proofs.«107381_j70265664963122_1_alg».proof.Proof.LibColumn
import Idealize.ShloMosaic.Lib.ValueLayout
import Idealize.ShloMosaic.Lib.ValueIdx
import Idealize.ShloMosaic.Lib.Pipeline.Value

noncomputable section

namespace Cert.Sage

open Idealize.ShloMosaic Idealize.ShloMosaic.ValueIdx Cert.KernelIdeal Cert.KernelIdeal.Gen

/-! ## The product's dimension numbers: which entries meet at the contraction index -/

theorem dot_l0 (j : S2000x128.Idx) (q : dot_S2000x128_S128x128_S2000x128_1_0_0_1_n_n.contr.Idx) :
    (dot_S2000x128_S128x128_S2000x128_1_0_0_1_n_n.lhsIdx j q 0).val = (j 0).val := by
  unfold DotDims.lhsIdx
  rw [dif_neg (show ¬(0 : Fin S2000x128.rank) ∈ dot_S2000x128_S128x128_S2000x128_1_0_0_1_n_n.lhsBatch by decide),
    dif_pos (show (0 : Fin S2000x128.rank) ∈ dot_S2000x128_S128x128_S2000x128_1_0_0_1_n_n.lhsNonContracting by decide)]
  rfl

theorem dot_l1 (j : S2000x128.Idx) (q : dot_S2000x128_S128x128_S2000x128_1_0_0_1_n_n.contr.Idx) :
    (dot_S2000x128_S128x128_S2000x128_1_0_0_1_n_n.lhsIdx j q 1).val = (q ⟨0, by decide⟩).val :=
  dot_S2000x128_S128x128_S2000x128_1_0_0_1_n_n.lhsIdx_val_of_single rfl j q

theorem dot_r0 (j : S2000x128.Idx) (q : dot_S2000x128_S128x128_S2000x128_1_0_0_1_n_n.contr.Idx) :
    (dot_S2000x128_S128x128_S2000x128_1_0_0_1_n_n.rhsIdx j q 0).val = (q ⟨0, by decide⟩).val :=
  dot_S2000x128_S128x128_S2000x128_1_0_0_1_n_n.rhsIdx_val_of_single rfl j q

theorem dot_r1 (j : S2000x128.Idx) (q : dot_S2000x128_S128x128_S2000x128_1_0_0_1_n_n.contr.Idx) :
    (dot_S2000x128_S128x128_S2000x128_1_0_0_1_n_n.rhsIdx j q 1).val = (j 1).val := by
  unfold DotDims.rhsIdx
  rw [dif_neg (show ¬(1 : Fin S128x128.rank) ∈ dot_S2000x128_S128x128_S2000x128_1_0_0_1_n_n.rhsBatch by decide),
    dif_pos (show (1 : Fin S128x128.rank) ∈ dot_S2000x128_S128x128_S2000x128_1_0_0_1_n_n.rhsNonContracting by decide)]
  rfl

/-- A block of rows times a weight half, into zeros, at (r, q): the sum over k of a (r, k) · w (k, q). -/
theorem prod_at (a : FVec Ideal S2000x128 .bf16) (w : FVec Ideal S128x128 .bf16) (r : Fin 2000) (q : Fin 128) :
    matmul dot_S2000x128_S128x128_S2000x128_1_0_0_1_n_n none a w (constant S2000x128 .f32 0x00000000#32) (ix2 r q)
      = ∑ k : Fin 128, a (ix2 r k) * w (ix2 k q) :=
  Cert.LibMatmul.matmul_zero_ix2 dot_S2000x128_S128x128_S2000x128_1_0_0_1_n_n none rfl rfl
    dot_l0 dot_l1 dot_r0 dot_r1 a w (ix2 r q)

/-! ## The linear part -/

/-- The body's linear part: both products and the bias, as the body spells them. -/
def linV (x0 x1 : Vec Ideal S2000x128 .f32) (x2 x3 : Vec Ideal S128x128 .f32) (x4 : Vec Ideal S128 .f32) : FVec Ideal S2000x128 .f32 :=
  addf
    (addf
      (matmul dot_S2000x128_S128x128_S2000x128_1_0_0_1_n_n none (truncf .bf16 x0 bitsLt_bf16_f32)
        (truncf .bf16 (shapeCast S128x128 x2 shapeCasts_S128x128_S128x128) bitsLt_bf16_f32) (constant S2000x128 .f32 0x00000000#32))
      (matmul dot_S2000x128_S128x128_S2000x128_1_0_0_1_n_n none
        (truncf .bf16 (shapeCast S2000x128 x1 shapeCasts_S2000x128_S2000x128) bitsLt_bf16_f32)
        (truncf .bf16 (shapeCast S128x128 x3 shapeCasts_S128x128_S128x128) bitsLt_bf16_f32) (constant S2000x128 .f32 0x00000000#32)))
    (broadcastTo S2000x128 (shapeCast S1x128 x4 shapeCasts_S128_S1x128) broadcasts_S1x128_S2000x128)

theorem linV_at (x0 x1 : Vec Ideal S2000x128 .f32) (x2 x3 : Vec Ideal S128x128 .f32) (x4 : Vec Ideal S128 .f32)
    (r : Fin 2000) (q : Fin 128) :
    linV x0 x1 x2 x3 x4 (ix2 r q)
      = rowLin (fun k => x0 (ix2 r k)) (fun k => x1 (ix2 r k)) (fun k q => x2 (ix2 k q)) (fun k q => x3 (ix2 k q))
          (fun q => x4 (ix1 q)) q := by
  unfold linV rowLin
  rw [addf_apply, addf_apply, prod_at, prod_at, shapeCast_self, shapeCast_self, shapeCast_self,
    broadcastTo_1b_ab_apply, shapeCast_a_1a_apply]
  rfl

/-! ## The stored value -/

theorem pay_eq (x0 x1 : Vec Ideal S2000x128 .f32) (x2 x3 : Vec Ideal S128x128 .f32) (x4 : Vec Ideal S128 .f32) :
    k0_pay1 (F := Ideal) x0 x1 x2 x3 x4
      = maximumf
          (divf (linV x0 x1 x2 x3 x4)
            (broadcastTo S2000x128
              (maximumf
                (sqrt (shapeCast S2000x1
                  (multiReduction .add [1] S2000 (mulf (linV x0 x1 x2 x3 x4) (linV x0 x1 x2 x3 x4)) 0x00000000#32
                    reduces_S2000x128_S2000 (.inl rfl) rfl) shapeCasts_S2000_S2000x1))
                (broadcast S2000x1 (Scalar.ofBits .f32 0x2B8CBCCC#32)))
              broadcasts_S2000x1_S2000x128))
          (broadcast S2000x128 (Scalar.ofBits .f32 0x00000000#32)) := rfl

/-- The body's stored value at row r and column q is the output row of row r of the two loaded blocks. -/
theorem pay_at (x0 x1 : Vec Ideal S2000x128 .f32) (x2 x3 : Vec Ideal S128x128 .f32) (x4 : Vec Ideal S128 .f32)
    (r : Fin 2000) (q : Fin 128) :
    k0_pay1 (F := Ideal) x0 x1 x2 x3 x4 (ix2 r q)
      = rowOut (fun k => x0 (ix2 r k)) (fun k => x1 (ix2 r k)) (fun k q => x2 (ix2 k q)) (fun k q => x3 (ix2 k q))
          (fun q => x4 (ix1 q)) q := by
  rw [pay_eq, maximumf_apply, divf_apply, broadcastTo_a1_ab_apply, maximumf_apply, linV_at]
  unfold rowOut
  refine congrArg₂ max (congrArg₂ Ideal.div rfl (congrArg₂ max (congrArg Ideal.sqrt ?_) rfl)) rfl
  refine (shapeCast_a_a1_apply _ shapeCasts_S2000_S2000x1 r 0).trans ?_
  refine (Cert.LibRowSum.multiReduction_add_row _ _ reduces_S2000x128_S2000 (.inl rfl) rfl r).trans ?_
  refine Finset.sum_congr rfl fun k _ => ?_
  rw [mulf_apply, linV_at]

end Cert.Sage

end
-- ==== Proof.Blocks.lean ====
/-
  From blocks to the array: what the kernel's result array holds after the run.

  The grid has 25 points; point t stages rows 2000 t .. 2000 t + 1999 of the features and of the means, the two
  weight halves and the bias whole, and writes back rows 2000 t .. 2000 t + 1999 of the result. Row r of the
  stored value depends on row r of the two staged blocks only (Payload: pay_at), that is on row 2000 t + r of the
  arrays, so what point t writes back is block t of one whole-array function (layer, below), and the 25 blocks
  tile the array: row p is in the block of point p / 2000.
-/
import proofs.«107381_j70265664963122_1_alg».proof.Proof.Gen.KernelIdeal.Value
import proofs.«107381_j70265664963122_1_alg».proof.Proof.Payload
import Idealize.ShloMosaic.Lib.Pipeline.Value
import Idealize.ShloMosaic.Lib.ValueIdx

noncomputable section

namespace Cert.Sage

open Idealize.ShloMosaic Idealize.ShloMosaic.TcCoe Idealize.ShloMosaic.ValueIdx Idealize.SL.Sem
open Idealize.ShloMosaic.Pipeline (Dat)
open Cert.KernelIdeal Cert.KernelIdeal.Gen

/-- The layer applied row by row to whole arrays, the two weight halves given apart. -/
def layer (h cm : S50000x128.Idx → EReal) (Wh Wc : S128x128.Idx → EReal) (b : S128.Idx → EReal) : S50000x128.Idx → EReal := fun i =>
  rowOut (fun k => h (ix2 (i 0) k)) (fun k => cm (ix2 (i 0) k)) (fun k q => Wh (ix2 k q)) (fun k q => Wc (ix2 k q))
    (fun q => b (ix1 q)) (i 1)

/-- The stored value at an entry j of the block is the layer at an entry i of the array, when row j 0 of the two
    staged blocks is row i 0 of the two arrays, the staged weights and bias are the arrays, and the columns agree. -/
theorem point_eq (x0 x1 : Vec Ideal S2000x128 .f32) (x2 x3 : Vec Ideal S128x128 .f32) (x4 : Vec Ideal S128 .f32)
    (h cm : S50000x128.Idx → EReal) (Wh Wc : S128x128.Idx → EReal) (b : S128.Idx → EReal)
    (j : S2000x128.Idx) (i : S50000x128.Idx)
    (e0 : ∀ k : Fin 128, x0 (ix2 (j 0) k) = h (ix2 (i 0) k))
    (e1 : ∀ k : Fin 128, x1 (ix2 (j 0) k) = cm (ix2 (i 0) k))
    (e2 : ∀ y : S128x128.Idx, x2 y = Wh y) (e3 : ∀ y : S128x128.Idx, x3 y = Wc y) (e4 : ∀ y : S128.Idx, x4 y = b y)
    (hq : (i 1).val = (j 1).val) :
    k0_pay1 (F := Ideal) x0 x1 x2 x3 x4 j = layer h cm Wh Wc b i := by
  obtain ⟨r, q, rfl⟩ : ∃ (r : Fin 2000) (q : Fin 128), j = ix2 r q := ⟨j 0, j 1, eq_ix2 j⟩
  rw [pay_at]
  unfold layer
  have hi : i 1 = q := Fin.ext hq
  rw [hi]
  congr 1
  · exact funext e0
  · exact funext e1
  · exact funext fun k => funext fun q => e2 _
  · exact funext fun k => funext fun q => e3 _
  · exact funext fun q => e4 _

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a; rfl

/-- The printed index maps over the grid: the features', the means' and the result's blocks move down the rows with
    the point; the weights and the bias stay. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- The result array as the layer of the arrays the region finds. -/
abbrev found (c : Dev nD) : S50000x128.Idx → EReal :=
  layer (V m c main_arg0) (V m c main_v18) (V m c main_v19) (V m c main_v20) (V m c main_arg2)

/-- What point t writes back is block t of the layer of the arrays as the region finds them. -/
theorem flushed_eq (c : Dev nD) (t : Fin cfg0.N) :
    (dats m 0 c).flushed 5 t = ((cfg0.win 5).blk t).view.read (Elt Ideal) (found m c) := by
  show (cfg0.win 5).cut (grid0.coords t) ((dats m 0 c).after 5 t) = _
  rw [after0_5]
  unfold out0_5
  rw [View.canon_unit_zero hz2]
  simp only [View.ld_unit_zero (S := S2000x128) hz2, View.ld_unit_zero (S := S128x128) hz2, View.ld_unit_zero (S := S128) hz1]
  obtain ⟨a0, a1, b0, b1, c0, c1, d0, d1, e0, f0, f1⟩ := idx_facts t
  funext j
  show k0_pay1 (F := Ideal) (iblk m c 0 t) (iblk m c 1 t) (iblk m c 2 t) (iblk m c 3 t) (iblk m c 4 t) j
    = found m c (((cfg0.win 5).blk t).view.emb j)
  have hj0 : (j 0).val < 2000 := (j 0).isLt
  have hj1 : (j 1).val < 128 := (j 1).isLt
  refine point_eq _ _ _ _ _ _ _ _ _ _ j _ ?_ ?_ ?_ ?_ ?_ ?_
  · intro k
    unfold iblk
    rw [View.read_apply]
    show V m c main_arg0 _ = V m c main_arg0 _
    congr 1
    funext a
    apply Fin.ext
    match a with
    | ⟨0, _⟩ => show win0_0.index t (0 : Fin 2) * 2000 + 1 * (j 0).val = win0_5.index t (0 : Fin 2) * 2000 + 1 * (j 0).val; omega
    | ⟨1, _⟩ => show win0_0.index t (1 : Fin 2) * 128 + 1 * k.val = k.val; omega
  · intro k
    unfold iblk
    rw [View.read_apply]
    show V m c main_v18 _ = V m c main_v18 _
    congr 1
    funext a
    apply Fin.ext
    match a with
    | ⟨0, _⟩ => show win0_1.index t (0 : Fin 2) * 2000 + 1 * (j 0).val = win0_5.index t (0 : Fin 2) * 2000 + 1 * (j 0).val; omega
    | ⟨1, _⟩ => show win0_1.index t (1 : Fin 2) * 128 + 1 * k.val = k.val; omega
  · intro y
    unfold iblk
    rw [View.read_apply]
    show V m c main_v19 _ = V m c main_v19 _
    congr 1
    funext a
    apply Fin.ext
    match a with
    | ⟨0, _⟩ => show win0_2.index t (0 : Fin 2) * 128 + 1 * (y 0).val = (y 0).val; omega
    | ⟨1, _⟩ => show win0_2.index t (1 : Fin 2) * 128 + 1 * (y 1).val = (y 1).val; omega
  · intro y
    unfold iblk
    rw [View.read_apply]
    show V m c main_v20 _ = V m c main_v20 _
    congr 1
    funext a
    apply Fin.ext
    match a with
    | ⟨0, _⟩ => show win0_3.index t (0 : Fin 2) * 128 + 1 * (y 0).val = (y 0).val; omega
    | ⟨1, _⟩ => show win0_3.index t (1 : Fin 2) * 128 + 1 * (y 1).val = (y 1).val; omega
  · intro y
    unfold iblk
    rw [View.read_apply]
    show V m c main_arg2 _ = V m c main_arg2 _
    congr 1
    funext a
    apply Fin.ext
    match a with
    | ⟨0, _⟩ => show win0_4.index t (0 : Fin 1) * 128 + 1 * (y 0).val = (y 0).val; omega
  · show win0_5.index t (1 : Fin 2) * 128 + 1 * (j 1).val = (j 1).val
    omega

/-- An index of the array is in point t's block iff each coordinate is in the block's range on its axis. -/
theorem mem_blk (t : Fin cfg0.N) (i : S50000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v21).slice (win0_5.rect t)).set ↔ _
  rw [View.set_slice_whole, Rect.mem_set_unit]
  exact Iff.rfl

/-- Every entry of the array is in some point's block: row p is in the block of point p / 2000. -/
theorem cover (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  have hN : cfg0.N = 25 := N_0
  let t : Fin cfg0.N := ⟨(i 0).val / 2000, by rw [hN]; omega⟩
  have ht : t.val = (i 0).val / 2000 := rfl
  obtain ⟨a0, a1, b0, b1, c0, c1, d0, d1, e0, f0, f1⟩ := idx_facts t
  refine ⟨t, flush0_5 t, ?_⟩
  rw [mem_blk]
  intro a
  match a with
  | ⟨0, _⟩ => show win0_5.index t (0 : Fin 2) * 2000 ≤ (i 0).val ∧ (i 0).val < win0_5.index t (0 : Fin 2) * 2000 + 2000; omega
  | ⟨1, _⟩ => show win0_5.index t (1 : Fin 2) * 128 ≤ (i 1).val ∧ (i 1).val < win0_5.index t (1 : Fin 2) * 128 + 128; omega

/-- The result array after the run is the layer of the arrays the region finds. -/
theorem final (c : Dev nD) : (dats m 0 c).arrAt 5 cfg0.N = found m c :=
  (dats m 0 c).arrAt_eq_of_cover 5 (found m c) (fun t _ => flushed_eq m c t) cover

/-- The kernel's run, read: the result array at the layer of the arrays the region finds, the arguments unchanged. -/
theorem run : θ_run defs (onTc (τ := τ) (main (F := Ideal))) ⟨m, fun _ => 0, ρ⟩ fun r => ∀ c : Dev nD,
      r.2.mem ((c : Thread nD τ).loc main_v21) = found m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩)
    (Cert.KernelIdeal.Value.run_blocks m ρ)

end Cert.Sage

end
-- ==== Proof.HostPrefix.lean ====
/-
  The arrays the kernel's region finds, as functions of the arguments.

  Before the region the program computes, on the host, the neighbourhood means (the same gather, scatter-add,
  degree count and quotient as the reference, operation by operation) and cuts the weights [256, 128] into their
  upper and lower halves. The features and the bias reach the region as launched.
-/
import proofs.«107381_j70265664963122_1_alg».proof.Proof.Gen.KernelIdeal.Frame
import proofs.«107381_j70265664963122_1_alg».proof.Proof.Gen.ReferenceIdeal.Read
import proofs.«107381_j70265664963122_1_alg».proof.Proof.Spec
import Idealize.ShloMosaic.Lib.StableHlo.Run
import Idealize.ShloMosaic.Lib.ValueLayout
import Idealize.ShloMosaic.Lib.ValueIdx

noncomputable section

namespace Cert.Sage

open Idealize.ShloMosaic Idealize.ShloMosaic.TcCoe Idealize.ShloMosaic.ValueIdx Idealize.SL.Sem Idealize.ShloMosaic.StableHlo
open Cert.KernelIdeal Cert.KernelIdeal.Gen

variable (m : (ℓ : Loc nD τ sig) → Buf (Elt Ideal) ℓ)

set_option maxRecDepth 8192 in
set_option maxHeartbeats 2000000 in
/-- The means the region finds are the reference's means of the features and the two edge lists. -/
theorem V_means (c : Dev nD) :
    (V m c main_v18 : S50000x128.Idx → EReal)
      = Cert.ReferenceIdeal.Read.val_main_v18 (F := Ideal) (m ((c : Thread nD τ).loc main_arg0))
          (m ((c : Thread nD τ).loc main_arg3)) (m ((c : Thread nD τ).loc main_arg4)) := by
  dsimp only [Gen.V, Gen.hostOps0]
  after_results_simp
  rfl

/-- The upper weight half the region finds: rows 0 .. 127 of the weights. -/
theorem V_upper (c : Dev nD) :
    (V m c main_v19 : S128x128.Idx → EReal)
      = extractStridedSlice S128x128 ![0, 0] (m ((c : Thread nD τ).loc main_arg1)) slices_S256x128_S128x128_0_0 := by
  dsimp only [Gen.V, Gen.hostOps0]
  after_results

/-- The lower weight half the region finds: rows 128 .. 255 of the weights. -/
theorem V_lower (c : Dev nD) :
    (V m c main_v20 : S128x128.Idx → EReal)
      = extractStridedSlice S128x128 ![128, 0] (m ((c : Thread nD τ).loc main_arg1)) slices_S256x128_S128x128_128_0 := by
  dsimp only [Gen.V, Gen.hostOps0]
  after_results

theorem upper_at (W : S256x128.Idx → EReal) (k q : Fin 128) :
    extractStridedSlice S128x128 ![0, 0] W slices_S256x128_S128x128_0_0 (ix2 k q) = W (ix2 (lo k) q) :=
  slice2_axis0_apply 0 W slices_S256x128_S128x128_0_0 k q (lo k) (by show k.val = 0 + k.val; omega)

theorem lower_at (W : S256x128.Idx → EReal) (k q : Fin 128) :
    extractStridedSlice S128x128 ![128, 0] W slices_S256x128_S128x128_128_0 (ix2 k q) = W (ix2 (hi k) q) :=
  slice2_axis0_apply 128 W slices_S256x128_S128x128_128_0 k q (hi k) rfl

end Cert.Sage

end
-- ==== Proof.RefRead.lean ====
/-
  The reference read entry by entry: it is the layer of Spec applied to the features, the neighbourhood means it
  computes, the weights and the bias.

  The reference concatenates each feature row with the row of means into a row of length 256 and multiplies by the
  whole weight matrix: one sum over k < 256, which is the sum over the upper half of the weights against the
  features plus the sum over the lower half against the means (Spec: sum_cat). Its norm is the root of the sum of
  squares along the row, started from the zero word, which adds nothing.
-/
import proofs.«107381_j70265664963122_1_alg».proof.Proof.Gen.ReferenceIdeal.Read
import proofs.«107381_j70265664963122_1_alg».proof.Proof.Spec
import Idealize.ShloMosaic.Lib.Pipeline.Value
import Idealize.ShloMosaic.Lib.ValueIdx
import Idealize.ShloMosaic.PureOps.Ideal.Laws

noncomputable section

namespace Cert.Sage.Ref

open Idealize.ShloMosaic Idealize.ShloMosaic.ValueIdx Cert.ReferenceIdeal Cert.ReferenceIdeal.Gen Cert.ReferenceIdeal.Read Cert.Sage

variable (x0 : (⟨S50000x128, .f32⟩ : BufTy).Contents (Elt Ideal)) (x1 : (⟨S256x128, .f32⟩ : BufTy).Contents (Elt Ideal))
  (x2 : (⟨S128, .f32⟩ : BufTy).Contents (Elt Ideal)) (x3 x4 : (⟨S600000, .i32⟩ : BufTy).Contents (Elt Ideal))

/-- The neighbourhood means the reference computes from the features and the edge lists. -/
abbrev means : (⟨S50000x128, .f32⟩ : BufTy).Contents (Elt Ideal) := val_main_v18 (F := Ideal) x0 x3 x4

/-- The concatenated array at (p, k): the features for k < 128, the means at k − 128 from there on. -/
theorem cat_at (p : Fin 50000) (k : Fin 256) :
    val_main_v19 (F := Ideal) x0 x3 x4 (ix2 p k)
      = cat (fun k => x0 (ix2 p k)) (fun k => means x0 x3 x4 (ix2 p k)) k := by
  unfold val_main_v19 cat
  by_cases hk : k.val < 128
  · rw [dif_pos hk]
    exact concatenate_pair_apply_left _ _ _ concatenates_S50000x128_S50000x128_S50000x256_d1 (ix2 p k) rfl
      (ix2 p (⟨k.val, hk⟩ : Fin 128)) (fun b => by match b with | ⟨0, _⟩ => rfl | ⟨1, _⟩ => rfl)
  · rw [dif_neg hk]
    exact concatenate_pair_apply_right _ _ _ concatenates_S50000x128_S50000x128_S50000x256_d1 (ix2 p k) rfl rfl
      (ix2 p (⟨k.val - 128, by omega⟩ : Fin 128))
      (fun b hb => by
        match b, hb with
        | ⟨0, _⟩, _ => rfl
        | ⟨1, _⟩, hb => exact absurd rfl hb)
      (by show (k.val - 128) + 128 = k.val; omega)

/-- The reference's linear layer at (p, q). -/
theorem lin_at (p : Fin 50000) (q : Fin 128) :
    val_main_v23 (F := Ideal) x0 x1 x2 x3 x4 (ix2 p q)
      = rowLin (fun k => x0 (ix2 p k)) (fun k => means x0 x3 x4 (ix2 p k)) (fun k q => x1 (ix2 (lo k) q))
          (fun k q => x1 (ix2 (hi k) q)) (fun q => x2 (ix1 q)) q := by
  have el : ∀ k : Fin 256, lidx_main_v20 (ix2 p q) k = ix2 p k := fun k =>
    funext fun a => Fin.ext (by match a with | ⟨0, _⟩ => rfl | ⟨1, _⟩ => rfl)
  have er : ∀ k : Fin 256, ridx_main_v20 (ix2 p q) k = ix2 k q := fun k =>
    funext fun a => Fin.ext (by match a with | ⟨0, _⟩ => rfl | ⟨1, _⟩ => rfl)
  have eb : idx_main_v21 (idx_main_v22 (ix2 p q)) = ix1 q :=
    funext fun a => Fin.ext (by match a with | ⟨0, _⟩ => rfl)
  rw [val_main_v23_apply, val_main_v20_apply, val_main_v22_apply, val_main_v21_apply, eb]
  simp only [el, er, cat_at]
  unfold rowLin
  rw [sum_cat (fun k => x0 (ix2 p k)) (fun k => means x0 x3 x4 (ix2 p k)) (fun k => x1 (ix2 k q))]
  rfl

/-- The reference's row sum of squares at row p. -/
theorem sq_at (p : Fin 50000) :
    val_main_call0_v1 (F := Ideal) x0 x1 x2 x3 x4 (ix1 p)
      = ∑ q : Fin 128, val_main_v23 (F := Ideal) x0 x1 x2 x3 x4 (ix2 p q) * val_main_v23 (F := Ideal) x0 x1 x2 x3 x4 (ix2 p q) := by
  have ei : ∀ k : Fin 128, idx_main_call0_v1 (ix1 p) k = ix2 p k := fun k =>
    funext fun a => Fin.ext (by match a with | ⟨0, _⟩ => rfl | ⟨1, _⟩ => rfl)
  rw [val_main_call0_v1_apply, val_main_call0_cst_apply]
  simp only [ei, val_main_call0_v0_apply]
  rw [Ideal.ofBits_def, Ideal.ofBits_zero_f32, zero_add]
  rfl

/-- The reference's result is the layer of Spec at the features, its own means, the weights and the bias. -/
theorem result_eq :
    val_main_v29 (F := Ideal) x0 x1 x2 x3 x4 = out x0 (means x0 x3 x4) x1 x2 := by
  funext i
  obtain ⟨p, q, rfl⟩ : ∃ (p : Fin 50000) (q : Fin 128), i = ix2 p q := ⟨i 0, i 1, eq_ix2 i⟩
  have e27 : idx_main_v27 (ix2 p q) = ix2 p (0 : Fin 1) :=
    funext fun a => Fin.ext (by match a with | ⟨0, _⟩ => rfl | ⟨1, _⟩ => rfl)
  have e2 : idx_main_call0_v2 (ix2 p (0 : Fin 1)) = ix1 p :=
    funext fun a => Fin.ext (by match a with | ⟨0, _⟩ => rfl)
  rw [val_main_v29_apply, val_main_v28_apply, val_main_v27_apply, e27, val_main_v26_apply, val_main_v24_apply,
    val_main_call0_v2_apply, e2, sq_at, val_main_v25_apply, val_main_cst_4_apply, val_main_call1_v0_apply,
    val_main_call1_cst_apply]
  simp only [lin_at]
  rfl

end Cert.Sage.Ref

end
-- ==== Proof.Claims.lean ====
/-
  The five claims.

  The three frames are the generated runs. The idealization rewrote nothing, so the kernel's idealized program is its
  own text read on the extended reals. For the value claim both programs end with the result array at the layer of
  Spec applied to the features, the neighbourhood means, the weights and the bias: the kernel computes the means on
  the host with the reference's own operations and cuts the weights into their halves before its region, and inside
  applies the layer block of rows by block of rows (Blocks); the reference applies it to the concatenated rows
  against the whole weight matrix (RefRead), which is the same sum split in two.
-/
import proofs.«107381_j70265664963122_1_alg».proof.Defs
import proofs.«107381_j70265664963122_1_alg».proof.Proof.Gen.Kernel.Frame
import proofs.«107381_j70265664963122_1_alg».proof.Proof.Gen.KernelIdeal.Frame
import proofs.«107381_j70265664963122_1_alg».proof.Proof.Gen.KernelIdeal.Value
import proofs.«107381_j70265664963122_1_alg».proof.Proof.Gen.ReferenceIdeal.Run
import proofs.«107381_j70265664963122_1_alg».proof.Proof.Gen.ReferenceIdeal.Read
import proofs.«107381_j70265664963122_1_alg».proof.Proof.Gen.Pre_finite_inputs
import proofs.«107381_j70265664963122_1_alg».proof.Proof.Spec
import proofs.«107381_j70265664963122_1_alg».proof.Proof.Blocks
import proofs.«107381_j70265664963122_1_alg».proof.Proof.HostPrefix
import proofs.«107381_j70265664963122_1_alg».proof.Proof.RefRead

noncomputable section

open Idealize.ShloMosaic Idealize.ShloMosaic.TcCoe Idealize.ShloMosaic.ValueIdx Idealize.SL.Sem

namespace Cert.Sage

open Cert.KernelIdeal Cert.KernelIdeal.Gen

/-- The layer of the arrays the kernel's region finds is the layer of Spec at the arguments, with the means the
    reference computes: the two weight halves are rows 0 .. 127 and 128 .. 255 of the weights. -/
theorem found_eq (m : (ℓ : Loc nD τ sig) → Buf (Elt Ideal) ℓ) (c : Dev nD) :
    found m c = out (m ((c : Thread nD τ).loc main_arg0))
      (Cert.ReferenceIdeal.Read.val_main_v18 (F := Ideal) (m ((c : Thread nD τ).loc main_arg0))
        (m ((c : Thread nD τ).loc main_arg3)) (m ((c : Thread nD τ).loc main_arg4)))
      (m ((c : Thread nD τ).loc main_arg1)) (m ((c : Thread nD τ).loc main_arg2)) := by
  unfold found
  rw [V_main_arg0, V_main_arg2, V_means, V_upper, V_lower]
  funext i
  unfold layer out
  congr 1
  · exact funext fun k => funext fun q => upper_at _ k q
  · exact funext fun k => funext fun q => lower_at _ k q

end Cert.Sage

namespace Cert.Proof.Claims

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result array at one function of the arguments, which agree. -/
theorem algebraic : Cert.algebraic_KernelIdeal_ReferenceIdeal := by
  intro m ρ m' ρ' _ hagree
  refine ⟨fun c => Cert.Sage.found m c, Cert.Sage.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v29_eq, Cert.Sage.Ref.result_eq, (hagree c).1, (hagree c).2.1, (hagree c).2.2.1,
    (hagree c).2.2.2.1, (hagree c).2.2.2.2]
  exact (Cert.Sage.found_eq m c).symm

end Cert.Proof.Claims

end
-- ==== Proof.lean ====
/-
  The certificate of a GraphSAGE layer: mean aggregation over incoming edges, a linear map of the concatenated
  feature and mean rows, division of each row by its length (at least ε) and a cut of negative entries to zero.

  The kernel computes the neighbourhood means on the host exactly as the reference does, cuts the weight matrix
  [256, 128] into its two halves, and in its one region applies to each block of 2000 nodes
      (h · W_upper + c · W_lower + b), normalised and cut.
  The reference concatenates (h, c) and multiplies by the whole weight matrix. On the extended reals the two are one
  function: a sum over 256 = 128 + 128 indices is the sum of its two halves, which needs no finiteness, so the
  precondition is never opened. The modules: Spec (the function and the split sum), Payload (the body's stored
  value at an entry), Blocks (the result array from the 25 blocks), HostPrefix (the arrays the region finds),
  RefRead (the reference at an entry), Claims (the five claims).
-/
import proofs.«107381_j70265664963122_1_alg».proof.Defs
import proofs.«107381_j70265664963122_1_alg».proof.Proof.Gen.Kernel
import proofs.«107381_j70265664963122_1_alg».proof.Proof.Gen.Kernel.Skeleton
import proofs.«107381_j70265664963122_1_alg».proof.Proof.Gen.Kernel.Launch
import proofs.«107381_j70265664963122_1_alg».proof.Proof.Gen.Kernel.Points
import proofs.«107381_j70265664963122_1_alg».proof.Proof.Gen.Kernel.Frame
import proofs.«107381_j70265664963122_1_alg».proof.Proof.Gen.KernelIdeal
import proofs.«107381_j70265664963122_1_alg».proof.Proof.Gen.KernelIdeal.Skeleton
import proofs.«107381_j70265664963122_1_alg».proof.Proof.Gen.KernelIdeal.Launch
import proofs.«107381_j70265664963122_1_alg».proof.Proof.Gen.KernelIdeal.Points
import proofs.«107381_j70265664963122_1_alg».proof.Proof.Gen.KernelIdeal.Frame
import proofs.«107381_j70265664963122_1_alg».proof.Proof.Gen.ReferenceIdeal
import proofs.«107381_j70265664963122_1_alg».proof.Proof.Gen.Pre_finite_inputs
import proofs.«107381_j70265664963122_1_alg».proof.Proof.Gen.KernelIdeal.Value
import proofs.«107381_j70265664963122_1_alg».proof.Proof.Gen.ReferenceIdeal.Run
import proofs.«107381_j70265664963122_1_alg».proof.Proof.Gen.ReferenceIdeal.Read
import proofs.«107381_j70265664963122_1_alg».proof.Proof.Claims
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
